-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x1024x4096 : Shape := ⟨3, ![8, 1024, 4096]⟩
abbrev S8x1x4096 : Shape := ⟨3, ![8, 1, 4096]⟩
abbrev S8x4096x1024 : Shape := ⟨3, ![8, 4096, 1024]⟩
abbrev S8x1x1024 : Shape := ⟨3, ![8, 1, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x1x4096 : S_.BroadcastsInDim S8x1x4096 (![] : Fin 0 → Fin S8x1x4096.rank)
  reducesTo_S8x1x4096_S_d0_1_2 : S8x1x4096.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1x1024 : S_.BroadcastsInDim S8x1x1024 (![] : Fin 0 → Fin S8x1x1024.rank)
  reducesTo_S8x1x1024_S_d0_1_2 : S8x1x1024.ReducesTo [0, 1, 2] S_

variable [Facts]

def fn_part1 {F : FTy → Type} [FloatOps F] (main_arg4 : FVec F S8x1x4096 .f32) (main_arg5 : FVec F S8x4096x1024 .f32) (main_arg6 : FVec F S8x1x1024 .f32) (main_v13 : IVec S_ 1) (main_v16 : IVec S8x1024x4096 1) : IVec S_ 1 :=
  let main_c_5 : IVec S_ 1 := constantI S_ 1 1#1
  let main_v17 : IVec S_ 1 := (fun x v => Host.reduce IntOp.andi x v reducesTo_S8x1024x4096_S_d0_1_2 h_S_) main_v16 main_c_5
  let main_v18 : IVec S_ 1 := andi main_v13 main_v17
  let main_v19 : FVec F S8x1x4096 .f32 := Host.absf main_arg4
  let main_cst_6 : FVec F S_ .f32 := constant S_ .f32 0x7F800000#32
  let main_v20 : FVec F S8x1x4096 .f32 := broadcastInDim S8x1x4096 ![] bcast_S_S8x1x4096 main_cst_6
  let main_v21 : IVec S8x1x4096 1 := cmpf .olt main_v19 main_v20
  let main_c_7 : IVec S_ 1 := constantI S_ 1 1#1
  let main_v22 : IVec S_ 1 := (fun x v => Host.reduce IntOp.andi x v reducesTo_S8x1x4096_S_d0_1_2 h_S_) main_v21 main_c_7
  let main_v23 : IVec S_ 1 := andi main_v18 main_v22
  let main_v24 : FVec F S8x4096x1024 .f32 := Host.absf main_arg5
  let main_cst_8 : FVec F S_ .f32 := constant S_ .f32 0x7F800000#32
  let main_v25 : FVec F S8x4096x1024 .f32 := broadcastInDim S8x4096x1024 ![] bcast_S_S8x4096x1024 main_cst_8
  let main_v26 : IVec S8x4096x1024 1 := cmpf .olt main_v24 main_v25
  let main_c_9 : IVec S_ 1 := constantI S_ 1 1#1
  let main_v27 : IVec S_ 1 := (fun x v => Host.reduce IntOp.andi x v reducesTo_S8x4096x1024_S_d0_1_2 h_S_) main_v26 main_c_9
  let main_v28 : IVec S_ 1 := andi main_v23 main_v27
  let main_v29 : FVec F S8x1x1024 .f32 := Host.absf main_arg6
  let main_cst_10 : FVec F S_ .f32 := constant S_ .f32 0x7F800000#32
  let main_v30 : FVec F S8x1x1024 .f32 := broadcastInDim S8x1x1024 ![] bcast_S_S8x1x1024 main_cst_10
  let main_v31 : IVec S8x1x1024 1 := cmpf .olt main_v29 main_v30
  let main_c_11 : IVec S_ 1 := constantI S_ 1 1#1
  let main_v32 : IVec S_ 1 := (fun x v => Host.reduce IntOp.andi x v reducesTo_S8x1x1024_S_d0_1_2 h_S_) main_v31 main_c_11
  let main_v33 : IVec S_ 1 := andi main_v28 main_v32
  main_v33

def fn {F : FTy → Type} [FloatOps F] (main_arg0 : FVec F S8x2048x1024 .f32) (main_arg1 : FVec F S8x1024x4096 .f32) (main_arg2 : FVec F S8x1x4096 .f32) (main_arg3 : FVec F S8x1024x4096 .f32) (main_arg4 : FVec F S8x1x4096 .f32) (main_arg5 : FVec F S8x4096x1024 .f32) (main_arg6 : FVec F S8x1x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x1024x4096 .f32 := Host.absf main_arg1
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x1x4096 .f32 := Host.absf main_arg2
  let main_cst_2 : FVec F S_ .f32 := constant S_ .f32 0x7F800000#32
  let main_v10 : FVec F S8x1x4096 .f32 := broadcastInDim S8x1x4096 ![] bcast_S_S8x1x4096 main_cst_2
  let main_v11 : IVec S8x1x4096 1 := cmpf .olt main_v9 main_v10
  let main_c_3 : IVec S_ 1 := constantI S_ 1 1#1
  let main_v12 : IVec S_ 1 := (fun x v => Host.reduce IntOp.andi x v reducesTo_S8x1x4096_S_d0_1_2 h_S_) main_v11 main_c_3
  let main_v13 : IVec S_ 1 := andi main_v8 main_v12
  let main_v14 : FVec F S8x1024x4096 .f32 := Host.absf main_arg3
  let main_cst_4 : FVec F S_ .f32 := constant S_ .f32 0x7F800000#32
  let main_v15 : FVec F S8x1024x4096 .f32 := broadcastInDim S8x1024x4096 ![] bcast_S_S8x1024x4096 main_cst_4
  let main_v16 : IVec S8x1024x4096 1 := cmpf .olt main_v14 main_v15
  fn_part1 (F := F) main_arg4 main_arg5 main_arg6 main_v13 main_v16
-- ==== Kernel.lean ====
abbrev S8x2048x1024 : Shape := ⟨3, ![8, 2048, 1024]⟩
abbrev S8x1024x4096 : Shape := ⟨3, ![8, 1024, 4096]⟩
abbrev S8x1x4096 : Shape := ⟨3, ![8, 1, 4096]⟩
abbrev S8x4096x1024 : Shape := ⟨3, ![8, 4096, 1024]⟩
abbrev S8x1x1024 : Shape := ⟨3, ![8, 1, 1024]⟩
abbrev S1x1024x1024 : Shape := ⟨3, ![1, 1024, 1024]⟩
abbrev S1x1024x256 : Shape := ⟨3, ![1, 1024, 256]⟩
abbrev S1x1x256 : Shape := ⟨3, ![1, 1, 256]⟩
abbrev S1x256x1024 : Shape := ⟨3, ![1, 256, 1024]⟩
abbrev S1x1x1024 : Shape := ⟨3, ![1, 1, 1024]⟩
abbrev S1024x1024 : Shape := ⟨2, ![1024, 1024]⟩
abbrev S1024x256 : Shape := ⟨2, ![1024, 256]⟩
abbrev S256x1024 : Shape := ⟨2, ![256, 1024]⟩
abbrev S1x256 : Shape := ⟨2, ![1, 256]⟩
abbrev S1x1024 : Shape := ⟨2, ![1, 1024]⟩

abbrev nBuf : Space → Nat
  | .hbm => 9
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x1024x4096, .f32⟩
  | .hbm, ⟨2, _⟩ => ⟨S8x1x4096, .f32⟩
  | .hbm, ⟨3, _⟩ => ⟨S8x1024x4096, .f32⟩
  | .hbm, ⟨4, _⟩ => ⟨S8x1x4096, .f32⟩
  | .hbm, ⟨5, _⟩ => ⟨S8x4096x1024, .f32⟩
  | .hbm, ⟨6, _⟩ => ⟨S8x1x1024, .f32⟩
  | .hbm, ⟨7, _⟩ => ⟨S8x2048x1024, .bf16⟩
  | .hbm, ⟨8, _⟩ => ⟨S8x2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x256, .f32⟩
  | .local _ .vmem, ⟨3, _⟩ => ⟨S1x1024x256, .f32⟩
  | .local _ .vmem, ⟨4, _⟩ => ⟨S1x1x256, .f32⟩
  | .local _ .vmem, ⟨5, _⟩ => ⟨S1x1x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1x256, .f32⟩
  | .local _ .vmem, ⟨9, _⟩ => ⟨S1x1x256, .f32⟩
  | .local _ .vmem, ⟨10, _⟩ => ⟨S1x256x1024, .f32⟩
  | .local _ .vmem, ⟨11, _⟩ => ⟨S1x256x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024x1024, .f32⟩
  | .local _ .vmem, ⟨15, _⟩ => ⟨S1x1024x1024, .f32⟩
  | .local _ .vmem, ⟨16, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 2, 16], ![false, false, false]⟩

def k0_cond2 (i : grid0.Coords) : BitVec 1 :=
  let arg2 : BitVec 32 := BitVec.ofNat 32 (i 2).val
  let c15_i32 : BitVec 32 := 15#32
  let v34 : BitVec 1 := Scalar.cmpi .eq arg2 c15_i32
  let v35 : BitVec 32 := Scalar.extui v34
  let c0_i32_24 : BitVec 32 := 0#32
  let v36 : BitVec 1 := Scalar.cmpi .ne v35 c0_i32_24
  v36

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S1024x256 : S1x256.Broadcasts S1024x256
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  shapeCasts_S1024x1024_S1x1024x1024 : S1024x1024.ShapeCasts S1x1024x1024
  dot_S1024x1024_S1024x256_S1024x256_1_0_0_1_n_n_wf : DotDims.WF S1024x1024 S1024x256 S1024x256 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .bf16 = 32 ∨ (Rect.block (s := S8x2048x1024) S1x1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S8x1024x4096.size a
  hwx0_1 : ∀ i : grid0.Coords, EltTy.bits .f32 = 32 ∨ (Rect.block (s := S8x1024x4096) S1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S8x1x4096.size a
  hwx0_2 : ∀ i : grid0.Coords, EltTy.bits .f32 = 32 ∨ (Rect.block (s := S8x1x4096) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S8x1024x4096.size a
  hwx0_3 : ∀ i : grid0.Coords, EltTy.bits .f32 = 32 ∨ (Rect.block (s := S8x1024x4096) S1x1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S8x1x4096.size a
  hwx0_4 : ∀ i : grid0.Coords, EltTy.bits .f32 = 32 ∨ (Rect.block (s := S8x1x4096) S1x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S8x4096x1024.size a
  hwx0_5 : ∀ i : grid0.Coords, EltTy.bits .f32 = 32 ∨ (Rect.block (s := S8x4096x1024) S1x256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S8x1x1024.size a
  hwx0_6 : ∀ i : grid0.Coords, EltTy.bits .f32 = 32 ∨ (Rect.block (s := S8x1x1024) S1x1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x1024.size a ≤ S8x2048x1024.size a
  hwx0_7 : ∀ i : grid0.Coords, EltTy.bits .f32 = 32 ∨ (Rect.block (s := S8x2048x1024) S1x1024x1024.size (cc0_transform_7 i) (hinb0_7 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x256x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x1024x4096 : Shape := ⟨3, ![8, 1024, 4096]⟩
abbrev S8x1x4096 : Shape := ⟨3, ![8, 1, 4096]⟩
abbrev S8x4096x1024 : Shape := ⟨3, ![8, 4096, 1024]⟩
abbrev S8x1x1024 : Shape := ⟨3, ![8, 1, 1024]⟩
abbrev S8x2048x4096 : Shape := ⟨3, ![8, 2048, 4096]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1024x4096, .f32⟩
  | .hbm, ⟨2, _⟩ => ⟨S8x1x4096, .f32⟩
  | .hbm, ⟨3, _⟩ => ⟨S8x1024x4096, .f32⟩
  | .hbm, ⟨4, _⟩ => ⟨S8x1x4096, .f32⟩
  | .hbm, ⟨5, _⟩ => ⟨S8x4096x1024, .f32⟩
  | .hbm, ⟨6, _⟩ => ⟨S8x1x1024, .f32⟩
  | .hbm, ⟨7, _⟩ => ⟨S8x2048x4096, .f32⟩
  | .hbm, ⟨8, _⟩ => ⟨S8x2048x4096, .f32⟩
  | .hbm, ⟨9, _⟩ => ⟨S8x2048x4096, .f32⟩
  | .hbm, ⟨10, _⟩ => ⟨S8x2048x4096, .f32⟩
  | .hbm, ⟨11, _⟩ => ⟨S8x2048x4096, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S_, .f32⟩
  | .hbm, ⟨16, _⟩ => ⟨S8x2048x4096, .f32⟩
  | .hbm, ⟨17, _⟩ => ⟨S8x2048x4096, .f32⟩
  | .hbm, ⟨18, _⟩ => ⟨S_, .f32⟩
  | .hbm, ⟨19, _⟩ => ⟨S8x2048x4096, .f32⟩
  | .hbm, ⟨20, _⟩ => ⟨S8x2048x4096, .f32⟩
  | .hbm, ⟨21, _⟩ => ⟨S8x2048x4096, .f32⟩
  | .hbm, ⟨22, _⟩ => ⟨S8x2048x4096, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩

abbrev nD : Nat := 1
abbrev τ : Topo := Topo.v7x

variable {F : FTy → Type} [FloatOps F]

class Facts₀ : Prop where
  bcast_S8x1x4096_S8x2048x4096_0_1_2 : S8x1x4096.BroadcastsInDim S8x2048x4096 (![0, 1, 2] : Fin 3 → Fin S8x2048x4096.rank)
  bcast_S_S8x2048x4096 : S_.BroadcastsInDim S8x2048x4096 (![] : Fin 0 → Fin S8x2048x4096.rank)
  bcast_S8x1x1024_S8x2048x1024_0_1_2 : S8x1x1024.BroadcastsInDim S8x2048x1024 (![0, 1, 2] : Fin 3 → Fin S8x2048x1024.rank)
  dot_S8x2048x1024_S8x1024x4096_S8x2048x4096_2_1_1_2_0_0_wf : DotDims.WF S8x2048x1024 S8x1024x4096 S8x2048x4096 [2] [1] [1] [2] [0] [0]
  dot_S8x2048x4096_S8x4096x1024_S8x2048x1024_2_1_1_2_0_0_wf : DotDims.WF S8x2048x4096 S8x4096x1024 S8x2048x1024 [2] [1] [1] [2] [0] [0]

variable [Facts₀]

def dot_S8x2048x1024_S8x1024x4096_S8x2048x4096_2_1_1_2_0_0 : DotDims S8x2048x1024 S8x1024x4096 S8x2048x4096 where
  lhsContracting := [2]
  rhsContracting := [1]
  lhsNonContracting := [1]
  rhsNonContracting := [2]
  lhsBatch := [0]
  rhsBatch := [0]
  wf := dot_S8x2048x1024_S8x1024x4096_S8x2048x4096_2_1_1_2_0_0_wf
def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf

class Facts : Prop extends Facts₀ where

variable [Facts]
-- ==== Proof.Spec.lean ====
/-
  The gated feed-forward layer of one expert, as one function of the seven argument arrays, entry by entry, on the
  extended reals.

  For expert `e`, token `t` and hidden unit `h` the two pre-activations are the inner product of the token's row with
  column `h` of a weight matrix plus that column's bias; the gated hidden value is the first pre-activation times the
  second one passed through `u ↦ u · σ(u)`, `σ u = 1 / (1 + e⁻ᵘ)`; output entry `(e, t, d)` is the sum over all 4096
  hidden units of the gated value times the projection weight `(e, h, d)`, plus the output bias `(e, 0, d)`.
-/
import Idealize.ShloMosaic.PureOps.Ideal
import Idealize.ShloMosaic.Lib.ValueIdx

noncomputable section

open scoped BigOperators

namespace Cert.Spec

open Idealize.ShloMosaic Idealize.ShloMosaic.ValueIdx

/-- The shapes of the arguments: tokens [8, 2048, 1024], the two input weights [8, 1024, 4096] with biases
    [8, 1, 4096], the projection [8, 4096, 1024] with bias [8, 1, 1024]. -/
abbrev SX : Shape := ⟨3, ![8, 2048, 1024]⟩
abbrev SW : Shape := ⟨3, ![8, 1024, 4096]⟩
abbrev SB : Shape := ⟨3, ![8, 1, 4096]⟩
abbrev SP : Shape := ⟨3, ![8, 4096, 1024]⟩
abbrev SC : Shape := ⟨3, ![8, 1, 1024]⟩

/-- A pre-activation: row `t` of expert `e`'s tokens against column `h` of a weight matrix, plus the bias of `h`. -/
def pre (x : SX.Idx → EReal) (w : SW.Idx → EReal) (b : SB.Idx → EReal) (e : Fin 8) (t : Fin 2048) (h : Fin 4096) : EReal :=
  (∑ i : Fin 1024, x (ix3 e t i) * w (ix3 e i h)) + b (ix3 e (0 : Fin 1) h)

/-- The gated hidden value `p · (q · σ q)`, `p` and `q` the two pre-activations of hidden unit `h`. -/
def gated (x : SX.Idx → EReal) (wfc : SW.Idx → EReal) (bfc : SB.Idx → EReal) (wg : SW.Idx → EReal) (bg : SB.Idx → EReal)
    (e : Fin 8) (t : Fin 2048) (h : Fin 4096) : EReal :=
  pre x wfc bfc e t h * (pre x wg bg e t h * Ideal.logistic (pre x wg bg e t h))

/-- Hidden unit `h`'s share of output entry `(e, t, d)`. -/
def share (x : SX.Idx → EReal) (wfc : SW.Idx → EReal) (bfc : SB.Idx → EReal) (wg : SW.Idx → EReal) (bg : SB.Idx → EReal)
    (wp : SP.Idx → EReal) (e : Fin 8) (t : Fin 2048) (d : Fin 1024) (h : Fin 4096) : EReal :=
  gated x wfc bfc wg bg e t h * wp (ix3 e h d)

/-- The layer's output, entry by entry. -/
def G (x : SX.Idx → EReal) (wfc : SW.Idx → EReal) (bfc : SB.Idx → EReal) (wg : SW.Idx → EReal) (bg : SB.Idx → EReal)
    (wp : SP.Idx → EReal) (bp : SC.Idx → EReal) : SX.Idx → EReal :=
  fun i =>
    (∑ h : Fin 4096, share x wfc bfc wg bg wp (⟨(i 0).val, (i 0).isLt⟩ : Fin 8) (⟨(i 1).val, (i 1).isLt⟩ : Fin 2048)
        (⟨(i 2).val, (i 2).isLt⟩ : Fin 1024) h)
      + bp (ix3 (⟨(i 0).val, (i 0).isLt⟩ : Fin 8) (0 : Fin 1) (⟨(i 2).val, (i 2).isLt⟩ : Fin 1024))

/-- At the index with coordinates `(e, t, d)`. -/
theorem G_ix3 (x : SX.Idx → EReal) (wfc : SW.Idx → EReal) (bfc : SB.Idx → EReal) (wg : SW.Idx → EReal) (bg : SB.Idx → EReal)
    (wp : SP.Idx → EReal) (bp : SC.Idx → EReal) (e : Fin 8) (t : Fin 2048) (d : Fin 1024) :
    G x wfc bfc wg bg wp bp (ix3 e t d)
      = (∑ h : Fin 4096, share x wfc bfc wg bg wp e t d h) + bp (ix3 e (0 : Fin 1) d) := rfl

end Cert.Spec

end
-- ==== Proof.RefSpec.lean ====
/-
  The reference program's result, as its run states it, is the layer's function `Spec.G` of the seven arguments,
  entry by entry: its two batched products are the inner products over the 1024 model coordinates, its biases are
  read at row 0 of their unit axis, its `x · (1 / (1 + e^(-x)))` is `x · σ x`, and its last batched product is the
  sum over the 4096 hidden units.
-/
import proofs.«131232_j4887672783477_2_alg».proof.Proof.Gen.ReferenceIdeal.Read
import proofs.«131232_j4887672783477_2_alg».proof.Proof.Spec

noncomputable section

open scoped BigOperators

namespace Cert.RefSpec

open Idealize.ShloMosaic Idealize.ShloMosaic.ValueIdx Cert.ReferenceIdeal Cert.ReferenceIdeal.Read

/-! ### The literal and the logistic function -/

/-- The single-precision word `0x3F800000` (sign 0, exponent 127, fraction 0) is the number one. -/
private theorem ofBits_one : Ideal.ofBits .f32 0x3F800000#32 = 1 := by
  simp [Ideal.ofBits, Ideal.ieee, -EReal.coe_mul]; norm_num

/-- `1 / (1 + e^(-u))`, spelt with the program's operations and its two literal ones, is `σ u`. -/
private theorem logistic_tail (u : Ideal .f32) :
    FloatOps.hostDivf (FloatOps.ofBits (F := Ideal) .f32 0x3F800000#32)
        (FloatOps.addf (FloatOps.ofBits (F := Ideal) .f32 0x3F800000#32)
          (FloatOps.hostUnary .exp (FloatOps.hostNegf u)))
      = Ideal.logistic u := by
  rw [Ideal.ofBits_def, ofBits_one]
  rfl

/-! ### The program's composed index functions at an index given by its coordinates -/

/-- The left operand of an inner product over the model coordinates is read at row `(e, t)`, coordinate `k`. -/
private theorem lidx_v0 (e : Fin 8) (t : Fin 2048) (h : Fin 4096) (k : Fin 1024) :
    lidx_main_v0 (ix3 e t h) k = ix3 e t k :=
  funext fun a => Fin.ext (by match a with | ⟨0, _⟩ => rfl | ⟨1, _⟩ => rfl | ⟨2, _⟩ => rfl)

/-- Its right operand is read at row `k`, column `h` of expert `e`'s matrix. -/
private theorem ridx_v0 (e : Fin 8) (t : Fin 2048) (h : Fin 4096) (k : Fin 1024) :
    ridx_main_v0 (ix3 e t h) k = ix3 e k h :=
  funext fun a => Fin.ext (by match a with | ⟨0, _⟩ => rfl | ⟨1, _⟩ => rfl | ⟨2, _⟩ => rfl)

private theorem lidx_v3 (e : Fin 8) (t : Fin 2048) (h : Fin 4096) (k : Fin 1024) :
    lidx_main_v3 (ix3 e t h) k = ix3 e t k :=
  funext fun a => Fin.ext (by match a with | ⟨0, _⟩ => rfl | ⟨1, _⟩ => rfl | ⟨2, _⟩ => rfl)

private theorem ridx_v3 (e : Fin 8) (t : Fin 2048) (h : Fin 4096) (k : Fin 1024) :
    ridx_main_v3 (ix3 e t h) k = ix3 e k h :=
  funext fun a => Fin.ext (by match a with | ⟨0, _⟩ => rfl | ⟨1, _⟩ => rfl | ⟨2, _⟩ => rfl)

/-- A hidden bias is read at row 0 of its unit axis. -/
private theorem idx_v1 (e : Fin 8) (t : Fin 2048) (h : Fin 4096) :
    idx_main_v1 (ix3 e t h) = ix3 e (0 : Fin 1) h :=
  funext fun a => Fin.ext (by match a with | ⟨0, _⟩ => rfl | ⟨1, _⟩ => rfl | ⟨2, _⟩ => rfl)

private theorem idx_v4 (e : Fin 8) (t : Fin 2048) (h : Fin 4096) :
    idx_main_v4 (ix3 e t h) = ix3 e (0 : Fin 1) h :=
  funext fun a => Fin.ext (by match a with | ⟨0, _⟩ => rfl | ⟨1, _⟩ => rfl | ⟨2, _⟩ => rfl)

/-- The left operand of the sum over the hidden units is read at row `(e, t)`, hidden unit `h`. -/
private theorem lidx_v8 (e : Fin 8) (t : Fin 2048) (d : Fin 1024) (h : Fin 4096) :
    lidx_main_v8 (ix3 e t d) h = ix3 e t h :=
  funext fun a => Fin.ext (by match a with | ⟨0, _⟩ => rfl | ⟨1, _⟩ => rfl | ⟨2, _⟩ => rfl)

/-- Its right operand is read at row `h`, column `d` of expert `e`'s projection. -/
private theorem ridx_v8 (e : Fin 8) (t : Fin 2048) (d : Fin 1024) (h : Fin 4096) :
    ridx_main_v8 (ix3 e t d) h = ix3 e h d :=
  funext fun a => Fin.ext (by match a with | ⟨0, _⟩ => rfl | ⟨1, _⟩ => rfl | ⟨2, _⟩ => rfl)

/-- The output bias is read at row 0 of its unit axis. -/
private theorem idx_v9 (e : Fin 8) (t : Fin 2048) (d : Fin 1024) :
    idx_main_v9 (ix3 e t d) = ix3 e (0 : Fin 1) d :=
  funext fun a => Fin.ext (by match a with | ⟨0, _⟩ => rfl | ⟨1, _⟩ => rfl | ⟨2, _⟩ => rfl)

/-! ### The stages, entry by entry -/

/-- The first pre-activation: the inner product with column `h` of the first weight matrix, plus its bias. -/
private theorem v2_ix3 (x0 : FVec Ideal S8x2048x1024 .f32) (x1 : FVec Ideal S8x1024x4096 .f32)
    (x2 : FVec Ideal S8x1x4096 .f32) (e : Fin 8) (t : Fin 2048) (h : Fin 4096) :
    val_main_v2 (F := Ideal) x0 x1 x2 (ix3 e t h) = Cert.Spec.pre x0 x1 x2 e t h := by
  rw [val_main_v2_apply, val_main_v0_apply, val_main_v1_apply, idx_v1, Ideal.addf_def]
  simp only [lidx_v0, ridx_v0]
  rfl

/-- The second pre-activation, the one that is gated. -/
private theorem v5_ix3 (x0 : FVec Ideal S8x2048x1024 .f32) (x3 : FVec Ideal S8x1024x4096 .f32)
    (x4 : FVec Ideal S8x1x4096 .f32) (e : Fin 8) (t : Fin 2048) (h : Fin 4096) :
    val_main_v5 (F := Ideal) x0 x3 x4 (ix3 e t h) = Cert.Spec.pre x0 x3 x4 e t h := by
  rw [val_main_v5_apply, val_main_v3_apply, val_main_v4_apply, idx_v4, Ideal.addf_def]
  simp only [lidx_v3, ridx_v3]
  rfl

/-- The quotient `1 / (1 + e^(-q))` of the second pre-activation `q` is `σ q`. -/
private theorem call0_v5_ix3 (x0 : FVec Ideal S8x2048x1024 .f32) (x3 : FVec Ideal S8x1024x4096 .f32)
    (x4 : FVec Ideal S8x1x4096 .f32) (e : Fin 8) (t : Fin 2048) (h : Fin 4096) :
    val_main_call0_v5 (F := Ideal) x0 x3 x4 (ix3 e t h) = Ideal.logistic (Cert.Spec.pre x0 x3 x4 e t h) := by
  rw [val_main_call0_v5_apply, val_main_call0_v4_apply, val_main_call0_cst_0_apply, val_main_call0_v3_apply,
    val_main_call0_v2_apply, val_main_call0_cst_apply, val_main_call0_v1_apply, val_main_call0_v0_apply, v5_ix3]
  exact logistic_tail _

/-- The gated hidden value `p · (q · σ q)`. -/
private theorem v7_ix3 (x0 : FVec Ideal S8x2048x1024 .f32) (x1 : FVec Ideal S8x1024x4096 .f32)
    (x2 : FVec Ideal S8x1x4096 .f32) (x3 : FVec Ideal S8x1024x4096 .f32) (x4 : FVec Ideal S8x1x4096 .f32)
    (e : Fin 8) (t : Fin 2048) (h : Fin 4096) :
    val_main_v7 (F := Ideal) x0 x1 x2 x3 x4 (ix3 e t h) = Cert.Spec.gated x0 x1 x2 x3 x4 e t h := by
  rw [val_main_v7_apply, val_main_v6_apply, v2_ix3, v5_ix3, call0_v5_ix3, Ideal.mulf_def, Ideal.mulf_def]
  rfl

/-- The reference's last stage is `Spec.G`. -/
theorem ref_eq (x0 : FVec Ideal S8x2048x1024 .f32) (x1 : FVec Ideal S8x1024x4096 .f32) (x2 : FVec Ideal S8x1x4096 .f32)
    (x3 : FVec Ideal S8x1024x4096 .f32) (x4 : FVec Ideal S8x1x4096 .f32) (x5 : FVec Ideal S8x4096x1024 .f32)
    (x6 : FVec Ideal S8x1x1024 .f32) :
    val_main_v10 (F := Ideal) x0 x1 x2 x3 x4 x5 x6 = Cert.Spec.G x0 x1 x2 x3 x4 x5 x6 := by
  funext i
  obtain ⟨e, t, d, rfl⟩ : ∃ (e : Fin 8) (t : Fin 2048) (d : Fin 1024), i = ix3 e t d := ⟨i 0, i 1, i 2, eq_ix3 i⟩
  rw [Cert.Spec.G_ix3, val_main_v10_apply, val_main_v8_apply, val_main_v9_apply, idx_v9, Ideal.addf_def]
  simp only [lidx_v8, ridx_v8, v7_ix3]
  rfl

end Cert.RefSpec

end
-- ==== Proof.Pieces.lean ====
/-
  What each kind of grid step leaves behind, as the step's payloads of its input blocks. The body loads its blocks whole
  and stores whole: the running total (a buffer carried from step to step) ends at the payload of the loads, over zero at
  the first of a run of sixteen steps and over what the step before left otherwise; the last step of a run also stores the
  output block, the finished total plus the output bias. Stated for any float instance.
-/
import proofs.«131232_j4887672783477_2_alg».proof.Proof.Gen.KernelIdeal.Frame
import Idealize.ShloMosaic.Lib.Pipeline.Value
import Idealize.ShloMosaic.Lib.Tactic

noncomputable section

namespace Cert.Pieces

open Cert.KernelIdeal Cert.KernelIdeal.Gen Idealize.ShloMosaic Idealize.ShloMosaic.TcCoe Idealize.ShloMosaic.Tactic Idealize.SL.Sem

variable {F : FTy → Type} [FloatOps F]

/-- The zero offsets of a whole-block load or store, however the zeros are spelt. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A middle step leaves in the running total the step's payload over what the step before left. -/
theorem soutB (c : Dev nD) (i : grid0.Coords) (arg3 : Memref sig .tc .vmem S1x1024x1024 .bf16) (harg3 : arg3.IsWhole) (arg4 : Memref sig .tc .vmem S1x1024x256 .f32) (harg4 : arg4.IsWhole) (arg5 : Memref sig .tc .vmem S1x1x256 .f32) (harg5 : arg5.IsWhole) (arg6 : Memref sig .tc .vmem S1x1024x256 .f32) (harg6 : arg6.IsWhole) (arg7 : Memref sig .tc .vmem S1x1x256 .f32) (harg7 : arg7.IsWhole) (arg8 : Memref sig .tc .vmem S1x256x1024 .f32) (harg8 : arg8.IsWhole) (arg9 : Memref sig .tc .vmem S1x1x1024 .f32) (harg9 : arg9.IsWhole) (arg10 : Memref sig .tc .vmem S1x1024x1024 .f32) (harg10 : arg10.IsWhole) (arg11 : Memref sig .tc .vmem S1024x1024 .f32) (harg11 : arg11.IsWhole) (hc0 : ¬cond0_0 i) (hc1 : ¬cond0_1 i)
    (x0 : Vec F S1x1024x1024 .bf16) (x1 : Vec F S1x1024x256 .f32) (x2 : Vec F S1x1x256 .f32) (x3 : Vec F S1x1024x256 .f32) (x4 : Vec F S1x1x256 .f32) (x5 : Vec F S1x256x1024 .f32) (x6 : Vec F S1x1x1024 .f32) (xs0 : Vec F S1024x1024 .f32) :
    sout0_B_0 c i arg3 harg3 arg4 harg4 arg5 harg5 arg6 harg6 arg7 harg7 arg8 harg8 arg9 harg9 arg10 harg10 arg11 harg11 hc0 hc1 x0 x1 x2 x3 x4 x5 x6 xs0 = k0_pay1 (k0_pay4 x0 x1 x3 x5 x2 x4 xs0) := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 x6 xs0)]
  unfold kernelRun0_B
  dsimp only
  sl_unfold_words
  simp only [View.readAt_eq_ld, harg3.read_unread, harg4.read_unread, harg5.read_unread, harg6.read_unread, harg7.read_unread,
    harg8.read_unread, harg9.read_unread, harg11.read_unread,
    View.ld_unit_zero (S := S1x1024x1024) hz3, View.ld_unit_zero (S := S1x1024x256) hz3, View.ld_unit_zero (S := S1x1x256) hz3,
    View.ld_unit_zero (S := S1x256x1024) hz3, View.ld_unit_zero (S := S1x1x1024) hz3, View.ld_unit_zero (S := S1024x1024) hz2,
    View.readCov_unit_zero (S := S1024x1024) _ hz2]
  exact View.canon_unit_zero (S := S1024x1024) hz2 _ _

/-- The first step of a run of sixteen resets the running total to zero and then adds its payload. -/
theorem soutA (c : Dev nD) (i : grid0.Coords) (arg3 : Memref sig .tc .vmem S1x1024x1024 .bf16) (harg3 : arg3.IsWhole) (arg4 : Memref sig .tc .vmem S1x1024x256 .f32) (harg4 : arg4.IsWhole) (arg5 : Memref sig .tc .vmem S1x1x256 .f32) (harg5 : arg5.IsWhole) (arg6 : Memref sig .tc .vmem S1x1024x256 .f32) (harg6 : arg6.IsWhole) (arg7 : Memref sig .tc .vmem S1x1x256 .f32) (harg7 : arg7.IsWhole) (arg8 : Memref sig .tc .vmem S1x256x1024 .f32) (harg8 : arg8.IsWhole) (arg9 : Memref sig .tc .vmem S1x1x1024 .f32) (harg9 : arg9.IsWhole) (arg10 : Memref sig .tc .vmem S1x1024x1024 .f32) (harg10 : arg10.IsWhole) (arg11 : Memref sig .tc .vmem S1024x1024 .f32) (harg11 : arg11.IsWhole) (hc0 : cond0_0 i) (hc1 : ¬cond0_1 i)
    (x0 : Vec F S1x1024x1024 .bf16) (x1 : Vec F S1x1024x256 .f32) (x2 : Vec F S1x1x256 .f32) (x3 : Vec F S1x1024x256 .f32) (x4 : Vec F S1x1x256 .f32) (x5 : Vec F S1x256x1024 .f32) (x6 : Vec F S1x1x1024 .f32) :
    sout0_A_0 c i arg3 harg3 arg4 harg4 arg5 harg5 arg6 harg6 arg7 harg7 arg8 harg8 arg9 harg9 arg10 harg10 arg11 harg11 hc0 hc1 x0 x1 x2 x3 x4 x5 x6 = k0_pay1 (k0_pay4 x0 x1 x3 x5 x2 x4 k0_pay3) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  simp only [View.readAt_eq_ld, harg3.read_unread, harg4.read_unread, harg5.read_unread, harg6.read_unread, harg7.read_unread,
    harg8.read_unread, harg9.read_unread, harg11.read_unread,
    View.ld_unit_zero (S := S1x1024x1024) hz3, View.ld_unit_zero (S := S1x1024x256) hz3, View.ld_unit_zero (S := S1x1x256) hz3,
    View.ld_unit_zero (S := S1x256x1024) hz3, View.ld_unit_zero (S := S1x1x1024) hz3, View.ld_unit_zero (S := S1024x1024) hz2,
    View.readCov_unit_zero (S := S1024x1024) _ hz2]
  exact View.canon_cons_unit_zero (S := S1024x1024) hz2 _ _ _

/-- The last step adds its payload like a middle one, -/
theorem soutC (c : Dev nD) (i : grid0.Coords) (arg3 : Memref sig .tc .vmem S1x1024x1024 .bf16) (harg3 : arg3.IsWhole) (arg4 : Memref sig .tc .vmem S1x1024x256 .f32) (harg4 : arg4.IsWhole) (arg5 : Memref sig .tc .vmem S1x1x256 .f32) (harg5 : arg5.IsWhole) (arg6 : Memref sig .tc .vmem S1x1024x256 .f32) (harg6 : arg6.IsWhole) (arg7 : Memref sig .tc .vmem S1x1x256 .f32) (harg7 : arg7.IsWhole) (arg8 : Memref sig .tc .vmem S1x256x1024 .f32) (harg8 : arg8.IsWhole) (arg9 : Memref sig .tc .vmem S1x1x1024 .f32) (harg9 : arg9.IsWhole) (arg10 : Memref sig .tc .vmem S1x1024x1024 .f32) (harg10 : arg10.IsWhole) (arg11 : Memref sig .tc .vmem S1024x1024 .f32) (harg11 : arg11.IsWhole) (hc0 : ¬cond0_0 i) (hc1 : cond0_1 i)
    (x0 : Vec F S1x1024x1024 .bf16) (x1 : Vec F S1x1024x256 .f32) (x2 : Vec F S1x1x256 .f32) (x3 : Vec F S1x1024x256 .f32) (x4 : Vec F S1x1x256 .f32) (x5 : Vec F S1x256x1024 .f32) (x6 : Vec F S1x1x1024 .f32) (xs0 : Vec F S1024x1024 .f32) :
    sout0_C_0 c i arg3 harg3 arg4 harg4 arg5 harg5 arg6 harg6 arg7 harg7 arg8 harg8 arg9 harg9 arg10 harg10 arg11 harg11 hc0 hc1 x0 x1 x2 x3 x4 x5 x6 xs0 = k0_pay1 (k0_pay4 x0 x1 x3 x5 x2 x4 xs0) := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  simp only [View.readAt_eq_ld, harg3.read_unread, harg4.read_unread, harg5.read_unread, harg6.read_unread, harg7.read_unread,
    harg8.read_unread, harg9.read_unread, harg11.read_unread,
    View.ld_unit_zero (S := S1x1024x1024) hz3, View.ld_unit_zero (S := S1x1024x256) hz3, View.ld_unit_zero (S := S1x1x256) hz3,
    View.ld_unit_zero (S := S1x256x1024) hz3, View.ld_unit_zero (S := S1x1x1024) hz3, View.ld_unit_zero (S := S1024x1024) hz2,
    View.readCov_unit_zero (S := S1024x1024) _ hz2]
  exact View.canon_unit_zero (S := S1024x1024) hz2 _ _

/-- and stores the output block: the finished running total plus the output bias. -/
theorem outC (c : Dev nD) (i : grid0.Coords) (arg3 : Memref sig .tc .vmem S1x1024x1024 .bf16) (harg3 : arg3.IsWhole) (arg4 : Memref sig .tc .vmem S1x1024x256 .f32) (harg4 : arg4.IsWhole) (arg5 : Memref sig .tc .vmem S1x1x256 .f32) (harg5 : arg5.IsWhole) (arg6 : Memref sig .tc .vmem S1x1024x256 .f32) (harg6 : arg6.IsWhole) (arg7 : Memref sig .tc .vmem S1x1x256 .f32) (harg7 : arg7.IsWhole) (arg8 : Memref sig .tc .vmem S1x256x1024 .f32) (harg8 : arg8.IsWhole) (arg9 : Memref sig .tc .vmem S1x1x1024 .f32) (harg9 : arg9.IsWhole) (arg10 : Memref sig .tc .vmem S1x1024x1024 .f32) (harg10 : arg10.IsWhole) (arg11 : Memref sig .tc .vmem S1024x1024 .f32) (harg11 : arg11.IsWhole) (hc0 : ¬cond0_0 i) (hc1 : cond0_1 i)
    (x0 : Vec F S1x1024x1024 .bf16) (x1 : Vec F S1x1024x256 .f32) (x2 : Vec F S1x1x256 .f32) (x3 : Vec F S1x1024x256 .f32) (x4 : Vec F S1x1x256 .f32) (x5 : Vec F S1x256x1024 .f32) (x6 : Vec F S1x1x1024 .f32) (xs0 : Vec F S1024x1024 .f32) :
    out0_C_7 c i arg3 harg3 arg4 harg4 arg5 harg5 arg6 harg6 arg7 harg7 arg8 harg8 arg9 harg9 arg10 harg10 arg11 harg11 hc0 hc1 x0 x1 x2 x3 x4 x5 x6 xs0 = k0_pay2 (k0_pay1 (k0_pay4 x0 x1 x3 x5 x2 x4 xs0)) x6 := by
  unfold out0_C_7
  rw [View.read_writes_eq_canon _ _ _ (cover0_C_7 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  simp only [View.readAt_eq_ld, harg3.read_unread, harg4.read_unread, harg5.read_unread, harg6.read_unread, harg7.read_unread,
    harg8.read_unread, harg9.read_unread, harg11.read_unread,
    View.ld_unit_zero (S := S1x1024x1024) hz3, View.ld_unit_zero (S := S1x1024x256) hz3, View.ld_unit_zero (S := S1x1x256) hz3,
    View.ld_unit_zero (S := S1x256x1024) hz3, View.ld_unit_zero (S := S1x1x1024) hz3, View.ld_unit_zero (S := S1024x1024) hz2,
    View.readCov_unit_zero (S := S1024x1024) _ hz2]
  exact View.canon_unit_zero (S := S1x1024x1024) hz3 _ _

end Cert.Pieces

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.Payload.lean ====
/-
  What one grid step computes, entry by entry, on the extended reals.

  A step holds a block of 1024 token rows (all 1024 model coordinates), 256 consecutive hidden units of the two input
  weights with their biases, and the matching 256 rows of the projection. Its new running total at (r, c) is the old
  total plus the sum over the block's 256 hidden units j of the gated value of (r, j) times the projection's (j, c);
  the gated value is p · (q · σ q) with p, q the two pre-activations (inner product over the 1024 model coordinates
  plus bias). Rounding to a narrower float format is the identity on the extended reals, and a product accumulated
  into the zero matrix is the plain sum of products.
-/
import proofs.«131232_j4887672783477_2_alg».proof.Proof.Gen.KernelIdeal.Skeleton
import proofs.«131232_j4887672783477_2_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Payload

open Idealize.ShloMosaic Idealize.ShloMosaic.ValueIdx Cert.KernelIdeal

/-- A block's pre-activation at token row `r` and hidden unit `j` of the block. -/
def blkPre (x : FVec Ideal S1x1024x1024 .bf16) (w : FVec Ideal S1x1024x256 .f32) (b : FVec Ideal S1x1x256 .f32)
    (r : Fin 1024) (j : Fin 256) : EReal :=
  (∑ i : Fin 1024, x (ix3 (0 : Fin 1) r i) * w (ix3 (0 : Fin 1) i j)) + b (ix3 (0 : Fin 1) (0 : Fin 1) j)

/-- A block's gated hidden value at `(r, j)`. -/
def blkGated (x : FVec Ideal S1x1024x1024 .bf16) (wfc : FVec Ideal S1x1024x256 .f32) (bfc : FVec Ideal S1x1x256 .f32)
    (wg : FVec Ideal S1x1024x256 .f32) (bg : FVec Ideal S1x1x256 .f32) (r : Fin 1024) (j : Fin 256) : EReal :=
  blkPre x wfc bfc r j * (blkPre x wg bg r j * Ideal.logistic (blkPre x wg bg r j))

/-- The first product's dimension numbers are the plain ones (rows by columns, one contracted axis), so accumulated
    into the zero matrix it reads, at `(r, j)`, the inner product of row `r` with column `j`. -/
private theorem matmul1_apply (A : FVec Ideal S1024x1024 .bf16) (B : FVec Ideal S1024x256 .bf16) (r : Fin 1024) (j : Fin 256) :
    matmul dot_S1024x1024_S1024x256_S1024x256_1_0_0_1_n_n none A B (constant (F := Ideal) S1024x256 .f32 0x00000000#32) (ix2 r j)
      = ∑ i : Fin 1024, A (ix2 r i) * B (ix2 i j) :=
  Cert.LibMatmulPlain.matmul_plain_zero_apply (m := 1024) (k := 1024) (n := 256) none A B r j

/-- The same for the second product, 1024×256 by 256×1024. -/
private theorem matmul2_apply (A : FVec Ideal S1024x256 .bf16) (B : FVec Ideal S256x1024 .bf16) (r c : Fin 1024) :
    matmul dot_S1024x256_S256x1024_S1024x1024_1_0_0_1_n_n none A B (constant (F := Ideal) S1024x1024 .f32 0x00000000#32) (ix2 r c)
      = ∑ j : Fin 256, A (ix2 r j) * B (ix2 j c) :=
  Cert.LibMatmulPlain.matmul_plain_zero_apply (m := 1024) (k := 256) (n := 1024) none A B r c

/-- A pre-activation as the step computes it — the tokens (unit axis dropped) times the rounded weights (unit axis
    dropped), accumulated into zero, plus the bias row repeated down the rows — read at `(r, j)`. -/
private theorem pre_apply (x : FVec Ideal S1x1024x1024 .bf16) (w : FVec Ideal S1x1024x256 .f32) (b : FVec Ideal S1x1x256 .f32)
    (hx : S1x1024x1024.ShapeCasts S1024x1024) (hw : S1x1024x256.ShapeCasts S1024x256)
    (hb : S1x1x256.ShapeCasts S1x256) (hbr : S1x256.Broadcasts S1024x256) (ht : FTy.bits .bf16 < FTy.bits .f32)
    (r : Fin 1024) (j : Fin 256) :
    addf (matmul dot_S1024x1024_S1024x256_S1024x256_1_0_0_1_n_n none (shapeCast S1024x1024 x hx)
            (truncf .bf16 (shapeCast S1024x256 w hw) ht) (constant (F := Ideal) S1024x256 .f32 0x00000000#32))
        (broadcastTo S1024x256 (shapeCast S1x256 b hb) hbr) (ix2 r j)
      = blkPre x w b r j := by
  unfold blkPre
  refine (addf_apply _ _ _).trans ?_
  have h1 : matmul dot_S1024x1024_S1024x256_S1024x256_1_0_0_1_n_n none (shapeCast S1024x1024 x hx)
      (truncf .bf16 (shapeCast S1024x256 w hw) ht) (constant (F := Ideal) S1024x256 .f32 0x00000000#32) (ix2 r j)
        = ∑ i : Fin 1024, x (ix3 (0 : Fin 1) r i) * w (ix3 (0 : Fin 1) i j) := by
    refine (matmul1_apply _ _ r j).trans ?_
    refine Finset.sum_congr rfl fun i _ => ?_
    rw [shapeCast_1ab_ab_apply, truncf_apply, shapeCast_1ab_ab_apply]
  have h2 : broadcastTo S1024x256 (shapeCast S1x256 b hb) hbr (ix2 r j) = b (ix3 (0 : Fin 1) (0 : Fin 1) j) := by
    rw [ValueIdx.broadcastTo_1b_ab_apply, shapeCast_1ab_ab_apply]
  rw [h1, h2]

/-- The step's new running total at `(r, c)`: the old total plus the block's 256 shares. -/
theorem pay4_apply (x : FVec Ideal S1x1024x1024 .bf16) (wfc : FVec Ideal S1x1024x256 .f32) (wg : FVec Ideal S1x1024x256 .f32)
    (wp : FVec Ideal S1x256x1024 .f32) (bfc : FVec Ideal S1x1x256 .f32) (bg : FVec Ideal S1x1x256 .f32)
    (acc : FVec Ideal S1024x1024 .f32) (r c : Fin 1024) :
    Gen.k0_pay4 (F := Ideal) x wfc wg wp bfc bg acc (ix2 r c)
      = acc (ix2 r c) + ∑ j : Fin 256, blkGated x wfc bfc wg bg r j * wp (ix3 (0 : Fin 1) j c) := by
  unfold Gen.k0_pay4
  refine (addf_apply _ _ _).trans ?_
  refine congrArg (fun t => acc (ix2 r c) + t) ?_
  refine (matmul2_apply _ _ r c).trans ?_
  refine Finset.sum_congr rfl fun j _ => ?_
  rw [truncf_apply, truncf_apply, shapeCast_1ab_ab_apply]
  refine congrArg (fun t => t * wp (ix3 (0 : Fin 1) j c)) ?_
  unfold blkGated
  refine (mulf_apply _ _ _).trans ?_
  rw [pre_apply]
  refine congrArg (fun t => blkPre x wfc bfc r j * t) ?_
  refine (mulf_apply _ _ _).trans ?_
  rw [pre_apply]
  refine congrArg (fun t => blkPre x wg bg r j * t) ?_
  show FloatOps.logistic _ = _
  rw [pre_apply, Ideal.logistic_def]

/-- The running total's reset value is zero everywhere. -/
theorem pay3_apply (i : S1024x1024.Idx) : Gen.k0_pay3 (F := Ideal) i = 0 := by
  unfold Gen.k0_pay3
  rw [shapeCast_self]
  exact Ideal.ofBits_zero_f32

/-- The stored running total is the computed one (a cast to its own shape). -/
theorem pay1_apply (v : FVec Ideal S1024x1024 .f32) (i : S1024x1024.Idx) : Gen.k0_pay1 (F := Ideal) v i = v i := by
  unfold Gen.k0_pay1
  rw [shapeCast_self]

/-- The last step's output block at `(0, r, c)`: the running total plus the output bias of column `c`. -/
theorem pay2_apply (acc : FVec Ideal S1024x1024 .f32) (bp : FVec Ideal S1x1x1024 .f32) (r c : Fin 1024) :
    Gen.k0_pay2 (F := Ideal) acc bp (ix3 (0 : Fin 1) r c) = acc (ix2 r c) + bp (ix3 (0 : Fin 1) (0 : Fin 1) c) := by
  unfold Gen.k0_pay2
  rw [shapeCast_ab_1ab_apply]
  refine (addf_apply _ _ _).trans ?_
  rw [ValueIdx.broadcastTo_1b_ab_apply, shapeCast_1ab_ab_apply]

end Cert.Payload

end
-- ==== Proof.Blocks.lean ====
/-
  Where each input block of a grid step sits in its argument array. The 256 steps are numbered expert-major: step n
  works on expert n / 32, token tile (n / 16) % 2 (1024 rows each) and hidden tile n % 16 (256 hidden units each). The
  token block is rows 1024·tile … of the expert's tokens (already rounded to the narrow format, which on the extended
  reals changes nothing); the input weights' blocks are 256 columns, their biases 256 entries, the projection's block
  256 rows, the output bias the expert's whole row. So a block's pre-activations and gated values are those of the
  layer at the shifted row and hidden unit.
-/
import proofs.«131232_j4887672783477_2_alg».proof.Proof.Gen.KernelIdeal.Frame
import proofs.«131232_j4887672783477_2_alg».proof.Proof.Spec
import proofs.«131232_j4887672783477_2_alg».proof.Proof.Payload
import Idealize.ShloMosaic.Lib.Pipeline.Value
import Idealize.ShloMosaic.Lib.ValueIdx
import Idealize.ShloMosaic.Lib.StableHlo.Run

noncomputable section

open scoped BigOperators

namespace Cert.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The seven argument arrays on core `c`, as launched. -/
abbrev X (c : Dev nD) : Cert.Spec.SX.Idx → EReal := m ((c : Thread nD τ).loc main_arg0)
abbrev Wfc (c : Dev nD) : Cert.Spec.SW.Idx → EReal := m ((c : Thread nD τ).loc main_arg1)
abbrev Bfc (c : Dev nD) : Cert.Spec.SB.Idx → EReal := m ((c : Thread nD τ).loc main_arg2)
abbrev Wg (c : Dev nD) : Cert.Spec.SW.Idx → EReal := m ((c : Thread nD τ).loc main_arg3)
abbrev Bg (c : Dev nD) : Cert.Spec.SB.Idx → EReal := m ((c : Thread nD τ).loc main_arg4)
abbrev Wp (c : Dev nD) : Cert.Spec.SP.Idx → EReal := m ((c : Thread nD τ).loc main_arg5)
abbrev Bp (c : Dev nD) : Cert.Spec.SC.Idx → EReal := m ((c : Thread nD τ).loc main_arg6)

/-- The block indices of the eight windows at step `t`, decided over the grid. -/
theorem idx_facts : ∀ t : Fin cfg0.N,
    (win0_0.index t (0 : Fin 3) = t.val / 32 ∧ win0_0.index t (1 : Fin 3) = t.val / 16 % 2 ∧ win0_0.index t (2 : Fin 3) = 0)
    ∧ (win0_1.index t (0 : Fin 3) = t.val / 32 ∧ win0_1.index t (1 : Fin 3) = 0 ∧ win0_1.index t (2 : Fin 3) = t.val % 16)
    ∧ (win0_2.index t (0 : Fin 3) = t.val / 32 ∧ win0_2.index t (1 : Fin 3) = 0 ∧ win0_2.index t (2 : Fin 3) = t.val % 16)
    ∧ (win0_3.index t (0 : Fin 3) = t.val / 32 ∧ win0_3.index t (1 : Fin 3) = 0 ∧ win0_3.index t (2 : Fin 3) = t.val % 16)
    ∧ (win0_4.index t (0 : Fin 3) = t.val / 32 ∧ win0_4.index t (1 : Fin 3) = 0 ∧ win0_4.index t (2 : Fin 3) = t.val % 16)
    ∧ (win0_5.index t (0 : Fin 3) = t.val / 32 ∧ win0_5.index t (1 : Fin 3) = t.val % 16 ∧ win0_5.index t (2 : Fin 3) = 0)
    ∧ (win0_6.index t (0 : Fin 3) = t.val / 32 ∧ win0_6.index t (1 : Fin 3) = 0 ∧ win0_6.index t (2 : Fin 3) = 0)
    ∧ (win0_7.index t (0 : Fin 3) = t.val / 32 ∧ win0_7.index t (1 : Fin 3) = t.val / 16 % 2 ∧ win0_7.index t (2 : Fin 3) = 0) :=
  (by decide +kernel : ∀ t : Fin grid0.N, _)

/-- The token array the region finds is the launched one rounded to the narrow format: the same extended reals. -/
theorem V_main_v0 (c : Dev nD) (j : S8x2048x1024.Idx) : V m c main_v0 j = m ((c : Thread nD τ).loc main_arg0) j := by
  have e : V m c main_v0
      = (truncf (F := Ideal) (s := S8x2048x1024) .bf16 (m ((c : Thread nD τ).loc main_arg0)) bitsLt_bf16_f32) := by
    dsimp only [Gen.V, Gen.hostOps0]; after_results <;> rfl
  rw [e]; rfl

/-- The token block: row `r`, coordinate `i`. -/
theorem iblk0_apply (c : Dev nD) (t : Fin cfg0.N) (e : Fin 8) (tr : Fin 2048) (r i : Fin 1024)
    (he : e.val = t.val / 32) (htr : tr.val = 1024 * (t.val / 16 % 2) + r.val) :
    (iblk m c 0 t : Vec Ideal S1x1024x1024 .bf16) (ix3 (0 : Fin 1) r i) = X m c (ix3 e tr i) := by
  obtain ⟨⟨h0, h1, h2⟩, -⟩ := idx_facts t
  unfold iblk
  rw [View.read_apply]
  show V m c main_v0 _ = _
  rw [V_main_v0 m c]
  refine congrArg _ (funext fun a => Fin.ext ?_)
  match a with
  | ⟨0, _⟩ => show win0_0.index t (0 : Fin 3) * 1 + 1 * 0 = e.val; omega
  | ⟨1, _⟩ => show win0_0.index t (1 : Fin 3) * 1024 + 1 * r.val = tr.val; omega
  | ⟨2, _⟩ => show win0_0.index t (2 : Fin 3) * 1024 + 1 * i.val = i.val; omega

/-- The first input weight's block: row `i`, hidden unit `j` of the tile. -/
theorem iblk1_apply (c : Dev nD) (t : Fin cfg0.N) (e : Fin 8) (hu : Fin 4096) (i : Fin 1024) (j : Fin 256)
    (he : e.val = t.val / 32) (hhu : hu.val = 256 * (t.val % 16) + j.val) :
    (iblk m c 1 t : Vec Ideal S1x1024x256 .f32) (ix3 (0 : Fin 1) i j) = Wfc m c (ix3 e i hu) := by
  obtain ⟨-, ⟨h0, h1, h2⟩, -⟩ := idx_facts t
  unfold iblk
  rw [View.read_apply]
  show V m c main_arg1 _ = _
  rw [V_main_arg1 m c]
  refine congrArg _ (funext fun a => Fin.ext ?_)
  match a with
  | ⟨0, _⟩ => show win0_1.index t (0 : Fin 3) * 1 + 1 * 0 = e.val; omega
  | ⟨1, _⟩ => show win0_1.index t (1 : Fin 3) * 1024 + 1 * i.val = i.val; omega
  | ⟨2, _⟩ => show win0_1.index t (2 : Fin 3) * 256 + 1 * j.val = hu.val; omega

/-- Its bias block. -/
theorem iblk2_apply (c : Dev nD) (t : Fin cfg0.N) (e : Fin 8) (hu : Fin 4096) (j : Fin 256)
    (he : e.val = t.val / 32) (hhu : hu.val = 256 * (t.val % 16) + j.val) :
    (iblk m c 2 t : Vec Ideal S1x1x256 .f32) (ix3 (0 : Fin 1) (0 : Fin 1) j) = Bfc m c (ix3 e (0 : Fin 1) hu) := by
  obtain ⟨-, -, ⟨h0, h1, h2⟩, -⟩ := idx_facts t
  unfold iblk
  rw [View.read_apply]
  show V m c main_arg2 _ = _
  rw [V_main_arg2 m c]
  refine congrArg _ (funext fun a => Fin.ext ?_)
  match a with
  | ⟨0, _⟩ => show win0_2.index t (0 : Fin 3) * 1 + 1 * 0 = e.val; omega
  | ⟨1, _⟩ => show win0_2.index t (1 : Fin 3) * 1 + 1 * 0 = 0; omega
  | ⟨2, _⟩ => show win0_2.index t (2 : Fin 3) * 256 + 1 * j.val = hu.val; omega

/-- The second input weight's block. -/
theorem iblk3_apply (c : Dev nD) (t : Fin cfg0.N) (e : Fin 8) (hu : Fin 4096) (i : Fin 1024) (j : Fin 256)
    (he : e.val = t.val / 32) (hhu : hu.val = 256 * (t.val % 16) + j.val) :
    (iblk m c 3 t : Vec Ideal S1x1024x256 .f32) (ix3 (0 : Fin 1) i j) = Wg m c (ix3 e i hu) := by
  obtain ⟨-, -, -, ⟨h0, h1, h2⟩, -⟩ := idx_facts t
  unfold iblk
  rw [View.read_apply]
  show V m c main_arg3 _ = _
  rw [V_main_arg3 m c]
  refine congrArg _ (funext fun a => Fin.ext ?_)
  match a with
  | ⟨0, _⟩ => show win0_3.index t (0 : Fin 3) * 1 + 1 * 0 = e.val; omega
  | ⟨1, _⟩ => show win0_3.index t (1 : Fin 3) * 1024 + 1 * i.val = i.val; omega
  | ⟨2, _⟩ => show win0_3.index t (2 : Fin 3) * 256 + 1 * j.val = hu.val; omega

/-- Its bias block. -/
theorem iblk4_apply (c : Dev nD) (t : Fin cfg0.N) (e : Fin 8) (hu : Fin 4096) (j : Fin 256)
    (he : e.val = t.val / 32) (hhu : hu.val = 256 * (t.val % 16) + j.val) :
    (iblk m c 4 t : Vec Ideal S1x1x256 .f32) (ix3 (0 : Fin 1) (0 : Fin 1) j) = Bg m c (ix3 e (0 : Fin 1) hu) := by
  obtain ⟨-, -, -, -, ⟨h0, h1, h2⟩, -⟩ := idx_facts t
  unfold iblk
  rw [View.read_apply]
  show V m c main_arg4 _ = _
  rw [V_main_arg4 m c]
  refine congrArg _ (funext fun a => Fin.ext ?_)
  match a with
  | ⟨0, _⟩ => show win0_4.index t (0 : Fin 3) * 1 + 1 * 0 = e.val; omega
  | ⟨1, _⟩ => show win0_4.index t (1 : Fin 3) * 1 + 1 * 0 = 0; omega
  | ⟨2, _⟩ => show win0_4.index t (2 : Fin 3) * 256 + 1 * j.val = hu.val; omega

/-- The projection's block: hidden unit `j` of the tile, output coordinate `d`. -/
theorem iblk5_apply (c : Dev nD) (t : Fin cfg0.N) (e : Fin 8) (hu : Fin 4096) (j : Fin 256) (d : Fin 1024)
    (he : e.val = t.val / 32) (hhu : hu.val = 256 * (t.val % 16) + j.val) :
    (iblk m c 5 t : Vec Ideal S1x256x1024 .f32) (ix3 (0 : Fin 1) j d) = Wp m c (ix3 e hu d) := by
  obtain ⟨-, -, -, -, -, ⟨h0, h1, h2⟩, -⟩ := idx_facts t
  unfold iblk
  rw [View.read_apply]
  show V m c main_arg5 _ = _
  rw [V_main_arg5 m c]
  refine congrArg _ (funext fun a => Fin.ext ?_)
  match a with
  | ⟨0, _⟩ => show win0_5.index t (0 : Fin 3) * 1 + 1 * 0 = e.val; omega
  | ⟨1, _⟩ => show win0_5.index t (1 : Fin 3) * 256 + 1 * j.val = hu.val; omega
  | ⟨2, _⟩ => show win0_5.index t (2 : Fin 3) * 1024 + 1 * d.val = d.val; omega

/-- The output bias's block: the expert's whole row. -/
theorem iblk6_apply (c : Dev nD) (t : Fin cfg0.N) (e : Fin 8) (d : Fin 1024)
    (he : e.val = t.val / 32)  :
    (iblk m c 6 t : Vec Ideal S1x1x1024 .f32) (ix3 (0 : Fin 1) (0 : Fin 1) d) = Bp m c (ix3 e (0 : Fin 1) d) := by
  obtain ⟨-, -, -, -, -, -, ⟨h0, h1, h2⟩, -⟩ := idx_facts t
  unfold iblk
  rw [View.read_apply]
  show V m c main_arg6 _ = _
  rw [V_main_arg6 m c]
  refine congrArg _ (funext fun a => Fin.ext ?_)
  match a with
  | ⟨0, _⟩ => show win0_6.index t (0 : Fin 3) * 1 + 1 * 0 = e.val; omega
  | ⟨1, _⟩ => show win0_6.index t (1 : Fin 3) * 1 + 1 * 0 = 0; omega
  | ⟨2, _⟩ => show win0_6.index t (2 : Fin 3) * 1024 + 1 * d.val = d.val; omega

/-- A block's pre-activation is the layer's at the shifted row and hidden unit (first weight). -/
theorem pre_blk_fc (c : Dev nD) (t : Fin cfg0.N) (e : Fin 8) (tr : Fin 2048) (hu : Fin 4096) (r : Fin 1024) (j : Fin 256)
    (he : e.val = t.val / 32) (htr : tr.val = 1024 * (t.val / 16 % 2) + r.val) (hhu : hu.val = 256 * (t.val % 16) + j.val) :
    Cert.Payload.blkPre (iblk m c 0 t) (iblk m c 1 t) (iblk m c 2 t) r j
      = Cert.Spec.pre (X m c) (Wfc m c) (Bfc m c) e tr hu := by
  unfold Cert.Payload.blkPre Cert.Spec.pre
  rw [iblk2_apply m c t e hu j he hhu]
  refine congrArg (fun s => s + Bfc m c (ix3 e (0 : Fin 1) hu)) (Finset.sum_congr rfl fun i _ => ?_)
  rw [iblk0_apply m c t e tr r i he htr, iblk1_apply m c t e hu i j he hhu]

/-- The same for the second weight. -/
theorem pre_blk_g (c : Dev nD) (t : Fin cfg0.N) (e : Fin 8) (tr : Fin 2048) (hu : Fin 4096) (r : Fin 1024) (j : Fin 256)
    (he : e.val = t.val / 32) (htr : tr.val = 1024 * (t.val / 16 % 2) + r.val) (hhu : hu.val = 256 * (t.val % 16) + j.val) :
    Cert.Payload.blkPre (iblk m c 0 t) (iblk m c 3 t) (iblk m c 4 t) r j
      = Cert.Spec.pre (X m c) (Wg m c) (Bg m c) e tr hu := by
  unfold Cert.Payload.blkPre Cert.Spec.pre
  rw [iblk4_apply m c t e hu j he hhu]
  refine congrArg (fun s => s + Bg m c (ix3 e (0 : Fin 1) hu)) (Finset.sum_congr rfl fun i _ => ?_)
  rw [iblk0_apply m c t e tr r i he htr, iblk3_apply m c t e hu i j he hhu]

/-- So a block's share of a running-total entry is the layer's share of the shifted hidden unit. -/
theorem share_blk (c : Dev nD) (t : Fin cfg0.N) (e : Fin 8) (tr : Fin 2048) (hu : Fin 4096) (r d : Fin 1024) (j : Fin 256)
    (he : e.val = t.val / 32) (htr : tr.val = 1024 * (t.val / 16 % 2) + r.val) (hhu : hu.val = 256 * (t.val % 16) + j.val) :
    Cert.Payload.blkGated (iblk m c 0 t) (iblk m c 1 t) (iblk m c 2 t) (iblk m c 3 t) (iblk m c 4 t) r j
        * (iblk m c 5 t : Vec Ideal S1x256x1024 .f32) (ix3 (0 : Fin 1) j d)
      = Cert.Spec.share (X m c) (Wfc m c) (Bfc m c) (Wg m c) (Bg m c) (Wp m c) e tr d hu := by
  unfold Cert.Payload.blkGated Cert.Spec.share Cert.Spec.gated
  rw [pre_blk_fc m c t e tr hu r j he htr hhu, pre_blk_g m c t e tr hu r j he htr hhu, iblk5_apply m c t e hu j d he hhu]

end Cert.Blocks

end
-- ==== Proof.Accum.lean ====
/-
  The running total after any grid step, entry by entry. Step n adds to entry (r, d) of the total the shares of its
  256 hidden units — units 256·(n % 16) … of expert n / 32 at token row 1024·((n / 16) % 2) + r —, the first step of
  each run of sixteen starting from zero. So after the k-th step of a run the entry is zero plus the sum of the first
  k + 1 steps' addends.
-/
import proofs.«131232_j4887672783477_2_alg».proof.Proof.Gen.KernelIdeal.Value
import proofs.«131232_j4887672783477_2_alg».proof.Proof.Pieces
import proofs.«131232_j4887672783477_2_alg».proof.Proof.Blocks

noncomputable section

open scoped BigOperators

namespace Cert.Accum

open Cert.KernelIdeal Cert.KernelIdeal.Gen Cert.KernelIdeal.Value Idealize.ShloMosaic Idealize.ShloMosaic.TcCoe Idealize.SL.Sem
open Idealize.ShloMosaic.ValueIdx Cert.Blocks

variable (m : (ℓ : Loc nD τ sig) → Buf (Elt Ideal) ℓ)

/-- Step `n`'s addend to entry `i` of the running total: the shares of the step's 256 hidden units. -/
def addend (c : Dev nD) (n : ℕ) (i : S1024x1024.Idx) : EReal :=
  ∑ j : Fin 256, Cert.Spec.share (X m c) (Wfc m c) (Bfc m c) (Wg m c) (Bg m c) (Wp m c)
    (⟨n / 32 % 8, Nat.mod_lt _ (by decide)⟩ : Fin 8)
    (⟨1024 * (n / 16 % 2) + (i 0).val, by have h : (i 0).val < 1024 := (i 0).isLt; omega⟩ : Fin 2048)
    (⟨(i 1).val, (i 1).isLt⟩ : Fin 1024)
    (⟨256 * (n % 16) + j.val, by have h := j.isLt; omega⟩ : Fin 4096)

/-- A step's stored total at an entry: what it started from plus its addend. -/
theorem step_apply (c : Dev nD) (t : Fin cfg0.N) (acc : FVec Ideal S1024x1024 .f32) (i : S1024x1024.Idx) :
    k0_pay1 (F := Ideal) (k0_pay4 (iblk m c 0 t) (iblk m c 1 t) (iblk m c 3 t) (iblk m c 5 t) (iblk m c 2 t) (iblk m c 4 t) acc) i
      = acc i + addend m c t.val i := by
  obtain ⟨r, d, rfl⟩ : ∃ (r d : Fin 1024), i = ix2 r d := ⟨i 0, i 1, eq_ix2 i⟩
  have hN : t.val < 256 := lt_of_lt_of_eq t.isLt N_0
  refine (Cert.Payload.pay1_apply _ _).trans ?_
  refine (Cert.Payload.pay4_apply (iblk m c 0 t) (iblk m c 1 t) (iblk m c 3 t) (iblk m c 5 t) (iblk m c 2 t) (iblk m c 4 t) acc r d).trans ?_
  refine congrArg (fun s => acc (ix2 r d) + s) (Finset.sum_congr rfl fun j _ => ?_)
  exact share_blk m c t _ _ _ r d j (by show t.val / 32 % 8 = t.val / 32; omega) rfl rfl

/-- The first step of a run of sixteen starts from zero, -/
theorem scAt_first (c : Dev nD) (t : Fin cfg0.N) (h0 : t.val % 16 = 0) (acc : Vec Ideal S1024x1024 .f32) (i : S1024x1024.Idx) :
    scAt0_0 m c t.val t.isLt acc i = 0 + addend m c t.val i := by
  have h1 : ¬t.val % 16 = 15 := by omega
  unfold scAt0_0
  rw [dif_pos h0, dif_neg h1]
  refine (congrFun (Cert.Pieces.soutA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) i).trans ?_
  refine (step_apply m c t _ i).trans ?_
  rw [Cert.Payload.pay3_apply]

/-- and every later step of the run from what the step before left. -/
theorem scAt_later (c : Dev nD) (t : Fin cfg0.N) (h0 : ¬t.val % 16 = 0) (acc : Vec Ideal S1024x1024 .f32) (i : S1024x1024.Idx) :
    scAt0_0 m c t.val t.isLt acc i = acc i + addend m c t.val i := by
  unfold scAt0_0
  rw [dif_neg h0]
  by_cases h1 : t.val % 16 = 15
  · rw [dif_pos h1]
    refine (congrFun (Cert.Pieces.soutC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) acc) i).trans ?_
    exact step_apply m c t acc i
  · rw [dif_neg h1]
    refine (congrFun (Cert.Pieces.soutB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) acc) i).trans ?_
    exact step_apply m c t acc i

/-- The running total after step `t`: zero plus the addends of the run's steps up to `t`. -/
theorem total_apply (c : Dev nD) (t : Fin cfg0.N) (i : S1024x1024.Idx) :
    (outsAt0 m c t.val t.isLt).2 i = 0 + ∑ s ∈ Finset.range (t.val % 16 + 1), addend m c (16 * (t.val / 16) + s) i := by
  have hN : t.val < 256 := lt_of_lt_of_eq t.isLt N_0
  rw [soutsAt0_0_eq m c t]
  exact Pipeline.accAt_add_apply (fun n h => scAt0_0 m c n h (VS0_0.read (Elt Ideal) VS0_0.junk)) (scAt0_0 m c)
    (fun _ => (0 : EReal)) (addend m c) (16 * (t.val / 16)) 15
    (fun h i => scAt_first m c ⟨16 * (t.val / 16), h⟩ (by show 16 * (t.val / 16) % 16 = 0; omega) _ i)
    (fun n h acc i hlt hle => scAt_later m c ⟨n, h⟩ (by show ¬n % 16 = 0; omega) acc i)
    (t.val % 16) (by omega) _ i

end Cert.Accum

end
-- ==== Proof.BlockSum.lean ====
/-
  A sum over the hidden axis taken block by block. The sum over `Fin (a * b)` of `f` is the sum over the `a`
  consecutive blocks of the sum over the `b` places inside a block, place `j` of block `s` being `b * s + j`; and the
  blocks may be counted by `Finset.range a`, as a running total over consecutive steps does.
-/
import Mathlib

open scoped BigOperators

namespace Cert.BlockSum

/-- Place `j` of block `s` among `a` blocks of `b` places. -/
def place (a b : ℕ) (s : Fin a) (j : Fin b) : Fin (a * b) :=
  ⟨b * s.val + j.val, by
    have h1 : b * s.val + j.val < b * (s.val + 1) := by rw [Nat.mul_succ]; exact Nat.add_lt_add_left j.isLt _
    have h2 : b * (s.val + 1) ≤ b * a := Nat.mul_le_mul_left _ s.isLt
    rw [Nat.mul_comm a b]; exact lt_of_lt_of_le h1 h2⟩

theorem place_val (a b : ℕ) (s : Fin a) (j : Fin b) : (place a b s j).val = b * s.val + j.val := rfl

/-- The whole sum is the sum of the blocks' sums. -/
theorem sum_blocks {M : Type*} [AddCommMonoid M] (a b : ℕ) (f : Fin (a * b) → M) :
    ∑ k : Fin (a * b), f k = ∑ s : Fin a, ∑ j : Fin b, f (place a b s j) := by
  rw [← Fintype.sum_prod_type', ← Equiv.sum_comp finProdFinEquiv f]
  refine Finset.sum_congr rfl fun p _ => congrArg f (Fin.ext ?_)
  show p.2.val + b * p.1.val = b * p.1.val + p.2.val
  exact Nat.add_comm _ _

/-- The blocks counted by `Finset.range a`: a function `g` of the block's number, agreeing with the block sums below
    `a`, sums over the range to the whole sum. -/
theorem sum_range_blocks {M : Type*} [AddCommMonoid M] (a b : ℕ) (f : Fin (a * b) → M) (g : ℕ → M)
    (hg : ∀ s : Fin a, g s.val = ∑ j : Fin b, f (place a b s j)) :
    ∑ s ∈ Finset.range a, g s = ∑ k : Fin (a * b), f k := by
  rw [sum_blocks, Finset.sum_range]
  exact Finset.sum_congr rfl fun s _ => hg s

end Cert.BlockSum
-- ==== Proof.Final.lean ====
/-
  The output array after the whole run is the layer's function of the seven arguments.

  Output block (expert, token tile) is written back once, by the last of the sixteen steps that share it. What that step
  writes at (r, d) is the finished running total — zero plus the sixteen steps' addends, that is the shares of all
  16 · 256 = 4096 hidden units taken tile by tile — plus the output bias: the layer's entry at row 1024·tile + r. The
  written-back blocks tile the output array, so the array is that function everywhere.
-/
import proofs.«131232_j4887672783477_2_alg».proof.Proof.Gen.KernelIdeal.Value
import proofs.«131232_j4887672783477_2_alg».proof.Proof.Pieces
import proofs.«131232_j4887672783477_2_alg».proof.Proof.Blocks
import proofs.«131232_j4887672783477_2_alg».proof.Proof.Accum
import proofs.«131232_j4887672783477_2_alg».proof.Proof.BlockSum

noncomputable section

open scoped BigOperators

namespace Cert.Final

open Cert.KernelIdeal Cert.KernelIdeal.Gen Cert.KernelIdeal.Value Idealize.ShloMosaic Idealize.ShloMosaic.TcCoe Idealize.SL.Sem
open Idealize.ShloMosaic.ValueIdx Cert.Blocks Cert.Accum
open Idealize.ShloMosaic.Pipeline (Dat)

variable (m : (ℓ : Loc nD τ sig) → Buf (Elt Ideal) ℓ) (ρ : Dev nD → PrngReg)

/-- The layer's output on core `c`, from the arguments as launched. -/
abbrev result (c : Dev nD) : Cert.Spec.SX.Idx → EReal :=
  Cert.Spec.G (X m c) (Wfc m c) (Bfc m c) (Wg m c) (Bg m c) (Wp m c) (Bp m c)

/-- A share depends on its four coordinates only through their values. -/
theorem share_congr (c : Dev nD) {e e' : Fin 8} {t t' : Fin 2048} {d d' : Fin 1024} {h h' : Fin 4096}
    (he : e.val = e'.val) (ht : t.val = t'.val) (hd : d.val = d'.val) (hh : h.val = h'.val) :
    Cert.Spec.share (X m c) (Wfc m c) (Bfc m c) (Wg m c) (Bg m c) (Wp m c) e t d h
      = Cert.Spec.share (X m c) (Wfc m c) (Bfc m c) (Wg m c) (Bg m c) (Wp m c) e' t' d' h' := by
  obtain rfl := Fin.ext he; obtain rfl := Fin.ext ht; obtain rfl := Fin.ext hd; obtain rfl := Fin.ext hh; rfl

/-- The sixteen steps of a run add up the shares of all 4096 hidden units. -/
theorem sum_addends (c : Dev nD) (q : ℕ) (hq : q < 16) (e : Fin 8) (tr : Fin 2048) (r d : Fin 1024)
    (he : e.val = q / 2) (htr : tr.val = 1024 * (q % 2) + r.val) :
    ∑ s ∈ Finset.range 16, addend m c (16 * q + s) (ix2 r d)
      = ∑ h : Fin 4096, Cert.Spec.share (X m c) (Wfc m c) (Bfc m c) (Wg m c) (Bg m c) (Wp m c) e tr d h := by
  refine Cert.BlockSum.sum_range_blocks 16 256
    (fun h => Cert.Spec.share (X m c) (Wfc m c) (Bfc m c) (Wg m c) (Bg m c) (Wp m c) e tr d h)
    (fun s => addend m c (16 * q + s) (ix2 r d)) (fun s => ?_)
  have hs := s.isLt
  unfold addend
  refine Finset.sum_congr rfl fun j _ => ?_
  have hj := j.isLt
  refine share_congr m c ?_ ?_ rfl ?_
  · show (16 * q + s.val) / 32 % 8 = e.val; omega
  · show 1024 * ((16 * q + s.val) / 16 % 2) + r.val = tr.val; omega
  · show 256 * ((16 * q + s.val) % 16) + j.val = 256 * s.val + j.val; omega

/-- What a writing-back step writes is its block of the layer's output. -/
theorem flushed_eq (c : Dev nD) (t : Fin cfg0.N) (hf : (cfg0.win 7).flush t = true) :
    (dats m 0 c).flushed 7 t = ((cfg0.win 7).blk t).view.read (Elt Ideal) (result m c) := by
  have hN : t.val < 256 := lt_of_lt_of_eq t.isLt N_0
  have h1 : t.val % 16 = 15 := (flush0_7 t).mp hf
  have h0 : ¬t.val % 16 = 0 := by omega
  obtain ⟨-, -, -, -, -, -, -, ⟨i0, i1, i2⟩⟩ := idx_facts t
  have hsc : (outsAt0 m c t.val t.isLt).2
      = k0_pay1 (F := Ideal) (k0_pay4 (iblk m c 0 t) (iblk m c 1 t) (iblk m c 3 t) (iblk m c 5 t) (iblk m c 2 t) (iblk m c 4 t)
        (outsAt0 m c (t.val - 1) (Nat.lt_of_le_of_lt (Nat.sub_le _ _) t.isLt)).2) := by
    rw [outsAt0_C m c t h0 h1]
    dsimp only
    exact (Cert.Pieces.soutC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2)
  rw [flushed7_C m c t h0 h1,
    Cert.Pieces.outC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2,
    ← hsc]
  funext y
  obtain ⟨u, r, d, rfl⟩ : ∃ (u : Fin 1) (r d : Fin 1024), y = ix3 u r d := ⟨y 0, y 1, y 2, eq_ix3 y⟩
  obtain rfl : u = 0 := Fin.ext (by omega)
  have hr := r.isLt
  let e : Fin 8 := ⟨t.val / 32, by omega⟩
  let tr : Fin 2048 := ⟨1024 * (t.val / 16 % 2) + r.val, by omega⟩
  have hemb : ((cfg0.win 7).blk t).view.emb (ix3 (0 : Fin 1) r d) = ix3 e tr d := by
    funext a; apply Fin.ext
    match a with
    | ⟨0, _⟩ => show win0_7.index t (0 : Fin 3) * 1 + 1 * 0 = t.val / 32; omega
    | ⟨1, _⟩ => show win0_7.index t (1 : Fin 3) * 1024 + 1 * r.val = 1024 * (t.val / 16 % 2) + r.val; omega
    | ⟨2, _⟩ => show win0_7.index t (2 : Fin 3) * 1024 + 1 * d.val = d.val; omega
  show k0_pay2 (F := Ideal) (outsAt0 m c t.val t.isLt).2 (iblk m c 6 t) (ix3 (0 : Fin 1) r d)
    = result m c (((cfg0.win 7).blk t).view.emb (ix3 (0 : Fin 1) r d))
  rw [hemb]
  refine (Cert.Payload.pay2_apply (outsAt0 m c t.val t.isLt).2 (iblk m c 6 t) r d).trans ?_
  refine Eq.trans ?_ (Cert.Spec.G_ix3 (X m c) (Wfc m c) (Bfc m c) (Wg m c) (Bg m c) (Wp m c) (Bp m c) e tr d).symm
  rw [total_apply m c t (ix2 r d), iblk6_apply m c t e d rfl, h1, zero_add]
  refine congrArg (fun s => s + Bp m c (ix3 e (0 : Fin 1) d)) ?_
  exact sum_addends m c (t.val / 16) (by omega) e tr r d (by show t.val / 32 = t.val / 16 / 2; omega)
    (by show 1024 * (t.val / 16 % 2) + r.val = 1024 * (t.val / 16 % 2) + r.val; rfl)

/-- An index of the output array is in step `t`'s block iff each coordinate is in the block's range on its axis. -/
theorem mem_blk (t : Fin cfg0.N) (i : S8x2048x1024.Idx) :
    i ∈ ((cfg0.win 7).blk t).view.set ↔ ∀ a : Fin 3, win0_7.index t a * S1x1024x1024.size a ≤ (i a).val
      ∧ (i a).val < win0_7.index t a * S1x1024x1024.size a + S1x1024x1024.size a := by
  show i ∈ ((View.whole main_v1).slice (win0_7.rect t)).set ↔ _
  rw [View.set_slice_whole, Rect.mem_set_unit]
  exact Iff.rfl

/-- Every entry of the output lies in the block some writing-back step writes: the last step of its expert and token tile. -/
theorem cover (i : S8x2048x1024.Idx) : ∃ t : Fin cfg0.N, (cfg0.win 7).flush t = true ∧ i ∈ ((cfg0.win 7).blk t).view.set := by
  have b0 : (i 0).val < 8 := (i 0).isLt
  have b1 : (i 1).val < 2048 := (i 1).isLt
  have b2 : (i 2).val < 1024 := (i 2).isLt
  have hN : cfg0.N = 256 := N_0
  obtain ⟨t, htv⟩ : ∃ t : Fin cfg0.N, t.val = ((i 0).val * 2 + (i 1).val / 1024) * 16 + 15 :=
    ⟨⟨((i 0).val * 2 + (i 1).val / 1024) * 16 + 15, by rw [hN]; omega⟩, rfl⟩
  obtain ⟨-, -, -, -, -, -, -, ⟨i0, i1, i2⟩⟩ := idx_facts t
  refine ⟨t, (flush0_7 t).mpr (by rw [htv]; omega), ?_⟩
  rw [mem_blk]
  intro a
  match a with
  | ⟨0, _⟩ =>
    show win0_7.index t (0 : Fin 3) * 1 ≤ (i 0).val ∧ (i 0).val < win0_7.index t (0 : Fin 3) * 1 + 1
    rw [i0, htv]; omega
  | ⟨1, _⟩ =>
    show win0_7.index t (1 : Fin 3) * 1024 ≤ (i 1).val ∧ (i 1).val < win0_7.index t (1 : Fin 3) * 1024 + 1024
    rw [i1, htv]; omega
  | ⟨2, _⟩ =>
    show win0_7.index t (2 : Fin 3) * 1024 ≤ (i 2).val ∧ (i 2).val < win0_7.index t (2 : Fin 3) * 1024 + 1024
    rw [i2]; omega

/-- The output array after the run. -/
theorem final (c : Dev nD) : (dats m 0 c).arrAt 7 cfg0.N = result m c :=
  (dats m 0 c).arrAt_eq_of_cover 7 (result m c) (fun t hf => flushed_eq m c t hf) cover

/-- The kernel's run: the output array at the layer's function of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.Final

end
-- ==== Proof.lean ====
/-
  A gated feed-forward layer for eight experts — two input products with biases, the gate `u ↦ u · σ(u)` on the second,
  their product projected back with an output bias — computed by a kernel that walks the 4096 hidden units in sixteen
  tiles of 256, keeping a running total of the projected shares per expert and token tile and writing the output block
  after the last tile, against the plain whole-array formulation.

  On the extended reals the kernel's roundings to a narrower float format are the identity, its products into a zero
  accumulator are plain sums of products, and `σ` is the same function on both sides; the only law that joins the two
  arrangements is that a sum over 4096 hidden units is the sum over sixteen consecutive tiles of the tiles' sums, which
  needs no finiteness. The precondition is therefore never opened.

  The three frames are the generated ones (the reference's from its generated run); nothing was rewritten on the way
  to the idealized kernel, so that claim is trivial; the value claim sets the kernel's run (the output array is the
  layer's function `Spec.G` of the arguments) beside the reference's run (its last stage is `Spec.G` too).
-/
import proofs.«131232_j4887672783477_2_alg».proof.Defs
import proofs.«131232_j4887672783477_2_alg».proof.Proof.Gen.Kernel
import proofs.«131232_j4887672783477_2_alg».proof.Proof.Gen.Kernel.Skeleton
import proofs.«131232_j4887672783477_2_alg».proof.Proof.Gen.Kernel.Launch
import proofs.«131232_j4887672783477_2_alg».proof.Proof.Gen.Kernel.Points
import proofs.«131232_j4887672783477_2_alg».proof.Proof.Gen.Kernel.Frame
import proofs.«131232_j4887672783477_2_alg».proof.Proof.Gen.KernelIdeal
import proofs.«131232_j4887672783477_2_alg».proof.Proof.Gen.KernelIdeal.Skeleton
import proofs.«131232_j4887672783477_2_alg».proof.Proof.Gen.KernelIdeal.Launch
import proofs.«131232_j4887672783477_2_alg».proof.Proof.Gen.KernelIdeal.Points
import proofs.«131232_j4887672783477_2_alg».proof.Proof.Gen.KernelIdeal.Frame
import proofs.«131232_j4887672783477_2_alg».proof.Proof.Gen.ReferenceIdeal
import proofs.«131232_j4887672783477_2_alg».proof.Proof.Gen.Pre_finite_inputs
import proofs.«131232_j4887672783477_2_alg».proof.Proof.Gen.KernelIdeal.Value
import proofs.«131232_j4887672783477_2_alg».proof.Proof.Gen.ReferenceIdeal.Run
import proofs.«131232_j4887672783477_2_alg».proof.Proof.Gen.ReferenceIdeal.Read
import proofs.«131232_j4887672783477_2_alg».proof.Proof.RefSpec
import proofs.«131232_j4887672783477_2_alg».proof.Proof.Final
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel :=
  fun m ρ _ => Cert.Kernel.Gen.frame m ρ

/-- So does the kernel read on the extended reals. -/
theorem frame_kernelIdeal : Cert.frame_KernelIdeal :=
  fun m ρ _ => Cert.KernelIdeal.Gen.frame m ρ

/-- The reference's frame is its run with the result forgotten. -/
theorem frame_reference : Cert.frame_ReferenceIdeal :=
  fun m ρ _ => (θ_run Cert.ReferenceIdeal.defs _ _).mono (fun _ h c => (h c).2)
    (Cert.ReferenceIdeal.Value.run (F := Ideal) m ρ)

/-- Both programs end with the layer's function of arguments that agree. -/
theorem algebraic : Cert.algebraic_KernelIdeal_ReferenceIdeal := by
  intro m ρ m' ρ' _ hagree
  refine ⟨fun c => Cert.Final.result m c, Cert.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2]
  exact (Cert.ReferenceIdeal.Read.val_main_v10_eq _ _ _ _ _ _ _).trans (Cert.RefSpec.ref_eq _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
